-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .bf16⟩
  | .hbm, ⟨41, _⟩ => ⟨S128x128, .bf16⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x128, .bf16⟩
  | .hbm, ⟨61, _⟩ => ⟨S128x128, .bf16⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run, with every buffer named.

  The program is four stretches: host operations, the first launch, host operations, the second launch. Running them
  in order from any memory terminates without a fault, and at the end every buffer of a core that outlives the
  launches holds the contents obtained by folding the four stretches over the launch memory: a host stretch applies
  its operations' functions; a launch leaves each of its input arrays as it found it and each output array at what
  its ten write-backs leave. It is the argument that shows the argument arrays end unchanged, with the final contents
  kept for every buffer rather than for the arguments alone.
-/
import proofs.«134263_j5935644803789_1_alg».proof.Proof.Gen.KernelIdeal.Frame

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with every long-lived buffer of
    every core at the fold of the four stretches over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Sage

end
-- ==== Proof.Entry.lean ====
/-
  What the two launches find in their operand arrays.

  Before the first launch the host has sliced the edge list into sources and destinations, counted each node's
  in-degree by scattering ones along the destinations, clamped it below by one and taken reciprocals, gathered the
  source rows of the features and scatter-added them along the destinations, and scaled each node's row by its
  reciprocal; it has also re-typed the weights and laid the bias as a row. Between the launches it does the same
  gather, scatter-add and scaling on the first launch's output. These are the same operations, in the same order and
  on the same operands, as the reference's own; each array is stated here with the reference's names for the shared
  pieces, and only the scaling by the reciprocal differs from the reference's division.
-/
import proofs.«134263_j5935644803789_1_alg».proof.Proof.Gen.KernelIdeal.Frame
import proofs.«134263_j5935644803789_1_alg».proof.Proof.Gen.ReferenceIdeal.Read
import Idealize.ShloMosaic.Lib.StableHlo.Run

set_option maxRecDepth 16384

noncomputable section

namespace Cert.Sage

open Idealize.ShloMosaic Idealize.ShloMosaic.TcCoe Idealize.SL.Sem Idealize.ShloMosaic.StableHlo
open Cert.KernelIdeal Cert.KernelIdeal.Gen Cert.ReferenceIdeal.Read

/-- Each node's reciprocal clamped in-degree `1 / max deg 1`, repeated along the node's row. -/
abbrev recipRows (x1 : IVec S2x600000 32) : FVec Ideal S50000x128 .f32 :=
  broadcastInDim S50000x128 ![0, 1] bcast_S50000x1_S50000x128_0_1 (broadcastInDim S50000x1 ![0] bcast_S50000_S50000x1_0
    (Host.divf (val_main_v18 (F := Ideal)) (maximumf (val_main_v17 (F := Ideal) x1) (val_main_v18 (F := Ideal)))))

variable (m : (ℓ : Loc nD τ sig) → Buf (Elt Ideal) ℓ) (ρ : Dev nD → PrngReg)

/-! ## At the first launch -/

/-- The edge sources, as a vector. -/
theorem entry_v1 (c : Dev nD) : @Eq (IVec S600000 32) (V1 m ρ c main_v1)
    (val_main_v1 (F := Ideal) (m ((c : Thread nD τ).loc main_arg1))) := by
  show StableHlo.after hostOps0 (W0 m ρ c) (Proc.devRef .tc main_v1) = _
  after_results_simp <;> rfl

/-- The edge destinations, as a vector. -/
theorem entry_v3 (c : Dev nD) : @Eq (IVec S600000 32) (V1 m ρ c main_v3)
    (val_main_v3 (F := Ideal) (m ((c : Thread nD τ).loc main_arg1))) := by
  show StableHlo.after hostOps0 (W0 m ρ c) (Proc.devRef .tc main_v3) = _
  after_results_simp <;> rfl

/-- Each node's reciprocal clamped in-degree. -/
theorem entry_v11 (c : Dev nD) : @Eq (FVec Ideal S50000 .f32) (V1 m ρ c main_v11)
    (Host.divf (val_main_v18 (F := Ideal))
      (maximumf (val_main_v17 (F := Ideal) (m ((c : Thread nD τ).loc main_arg1))) (val_main_v18 (F := Ideal)))) := by
  show StableHlo.after hostOps0 (W0 m ρ c) (Proc.devRef .tc main_v11) = _
  after_results_simp <;> rfl

/-- The aggregated features: the summed neighbour rows scaled by the reciprocal clamped in-degree. -/
theorem entry_v24 (c : Dev nD) : @Eq (FVec Ideal S50000x128 .f32) (V1 m ρ c main_v24)
    (mulf (val_main_v13 (F := Ideal) (m ((c : Thread nD τ).loc main_arg0)) (m ((c : Thread nD τ).loc main_arg1)))
      (recipRows (m ((c : Thread nD τ).loc main_arg1)))) := by
  show StableHlo.after hostOps0 (W0 m ρ c) (Proc.devRef .tc main_v24) = _
  after_results_simp <;> rfl

/-- The node features are the first argument. -/
theorem entry_arg0 (c : Dev nD) : V1 m ρ c main_arg0 = m ((c : Thread nD τ).loc main_arg0) := by
  show StableHlo.after hostOps0 (W0 m ρ c) (Proc.devRef .tc main_arg0) = _
  after_results_simp <;> rfl

/-- The left weights, re-typed. -/
theorem entry_v25 (c : Dev nD) : @Eq (FVec Ideal S128x128 .bf16) (V1 m ρ c main_v25)
    (truncf .bf16 (m ((c : Thread nD τ).loc main_arg2)) bitsLt_bf16_f32) := by
  show StableHlo.after hostOps0 (W0 m ρ c) (Proc.devRef .tc main_v25) = _
  after_results_simp <;> rfl

/-- The right weights, re-typed. -/
theorem entry_v26 (c : Dev nD) : @Eq (FVec Ideal S128x128 .bf16) (V1 m ρ c main_v26)
    (truncf .bf16 (m ((c : Thread nD τ).loc main_arg4)) bitsLt_bf16_f32) := by
  show StableHlo.after hostOps0 (W0 m ρ c) (Proc.devRef .tc main_v26) = _
  after_results_simp <;> rfl

/-- The bias, laid as a row. -/
theorem entry_v27 (c : Dev nD) : @Eq (FVec Ideal S1x128 .f32) (V1 m ρ c main_v27)
    (shapeCast S1x128 (m ((c : Thread nD τ).loc main_arg3)) shapeCasts_S128_S1x128) := by
  show StableHlo.after hostOps0 (W0 m ρ c) (Proc.devRef .tc main_v27) = _
  after_results_simp <;> rfl

/-- The second layer's arguments are untouched by the first stretch of host operations. -/
theorem entry_arg5 (c : Dev nD) : V1 m ρ c main_arg5 = m ((c : Thread nD τ).loc main_arg5) := by
  show StableHlo.after hostOps0 (W0 m ρ c) (Proc.devRef .tc main_arg5) = _
  after_results_simp <;> rfl
theorem entry_arg6 (c : Dev nD) : V1 m ρ c main_arg6 = m ((c : Thread nD τ).loc main_arg6) := by
  show StableHlo.after hostOps0 (W0 m ρ c) (Proc.devRef .tc main_arg6) = _
  after_results_simp <;> rfl
theorem entry_arg7 (c : Dev nD) : V1 m ρ c main_arg7 = m ((c : Thread nD τ).loc main_arg7) := by
  show StableHlo.after hostOps0 (W0 m ρ c) (Proc.devRef .tc main_arg7) = _
  after_results_simp <;> rfl

/-! ## At the second launch -/

/-- The hidden features the second launch reads are what the first launch left. -/
theorem exit_v28 (c : Dev nD) : V3 m ρ c main_v28 = V2 m ρ c main_v28 := by
  show StableHlo.after hostOps1 (W2 m ρ c) (Proc.devRef .tc main_v28) = _
  after_results_simp <;> rfl

/-- The second aggregated features: the hidden rows gathered along the sources, scatter-added along the destinations
    and scaled by the same reciprocals, once the hidden features are known to be the reference's. -/
theorem exit_v41 (c : Dev nD)
    (hH : @Eq (FVec Ideal S50000x128 .f32) (V2 m ρ c main_v28)
      (val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)))) :
    @Eq (FVec Ideal S50000x128 .f32) (V3 m ρ c main_v41)
      (mulf (val_main_v39 (F := Ideal) (m ((c : Thread nD τ).loc main_arg0)) (m ((c : Thread nD τ).loc main_arg1))
          (m ((c : Thread nD τ).loc main_arg2)) (m ((c : Thread nD τ).loc main_arg3)) (m ((c : Thread nD τ).loc main_arg4)))
        (recipRows (m ((c : Thread nD τ).loc main_arg1)))) := by
  show StableHlo.after hostOps1 (W2 m ρ c) (Proc.devRef .tc main_v41) = _
  after_results_simp
  rw [W2_of_ne m ρ c main_v1 (by decide), W2_of_ne m ρ c main_v3 (by decide), W2_of_ne m ρ c main_v11 (by decide)]
  rw [show W1 m ρ c (Proc.devRef .tc main_v1) = _ from entry_v1 m ρ c,
    show W1 m ρ c (Proc.devRef .tc main_v3) = _ from entry_v3 m ρ c,
    show W1 m ρ c (Proc.devRef .tc main_v11) = _ from entry_v11 m ρ c,
    show W2 m ρ c (Proc.devRef .tc main_v28) = _ from hH]
  rfl

/-- The second layer's left weights, re-typed. -/
theorem exit_v42 (c : Dev nD) : @Eq (FVec Ideal S128x128 .bf16) (V3 m ρ c main_v42)
    (truncf .bf16 (m ((c : Thread nD τ).loc main_arg5)) bitsLt_bf16_f32) := by
  show StableHlo.after hostOps1 (W2 m ρ c) (Proc.devRef .tc main_v42) = _
  after_results_simp
  rw [W2_of_ne m ρ c main_arg5 (by decide), show W1 m ρ c (Proc.devRef .tc main_arg5) = _ from entry_arg5 m ρ c]

/-- The second layer's right weights, re-typed. -/
theorem exit_v43 (c : Dev nD) : @Eq (FVec Ideal S128x128 .bf16) (V3 m ρ c main_v43)
    (truncf .bf16 (m ((c : Thread nD τ).loc main_arg7)) bitsLt_bf16_f32) := by
  show StableHlo.after hostOps1 (W2 m ρ c) (Proc.devRef .tc main_v43) = _
  after_results_simp
  rw [W2_of_ne m ρ c main_arg7 (by decide), show W1 m ρ c (Proc.devRef .tc main_arg7) = _ from entry_arg7 m ρ c]

/-- The second layer's bias, laid as a row. -/
theorem exit_v44 (c : Dev nD) : @Eq (FVec Ideal S1x128 .f32) (V3 m ρ c main_v44)
    (shapeCast S1x128 (m ((c : Thread nD τ).loc main_arg6)) shapeCasts_S128_S1x128) := by
  show StableHlo.after hostOps1 (W2 m ρ c) (Proc.devRef .tc main_v44) = _
  after_results_simp
  rw [W2_of_ne m ρ c main_arg6 (by decide), show W1 m ρ c (Proc.devRef .tc main_arg6) = _ from entry_arg6 m ρ c]
  rfl

end Cert.Sage

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Payload.lean ====
/-
  One tile of the dense node transform, read at one entry.

  At a grid point the kernel body holds a tile of 5000 rows of the aggregated features `a` and of the node features
  `x`, the two 128×128 weight matrices `wl`, `wr` and the bias row `b`, and stores

      (a · wl + b) + x · wr          (second layer)        max ((a · wl + b) + x · wr, 0)   (first layer).

  The roundings to bf16 in front of the matrix unit are the identity on the extended reals, and a product accumulated
  into zeros is the plain contraction, so entry (p, q) of the stored tile is

      (∑ₖ a (p, k) · wl (k, q) + b (0, q)) + ∑ₖ x (p, k) · wr (k, q)

  (clamped below by zero in the first layer): a finite sum with no order of summation left in it.
-/
import proofs.«134263_j5935644803789_1_alg».proof.Proof.Gen.KernelIdeal.Skeleton
import proofs.«134263_j5935644803789_1_alg».proof.Proof.LibContractPlain
import Idealize.ShloMosaic.Lib.ValueLayout
import Idealize.ShloMosaic.Lib.Pipeline.Value

noncomputable section

namespace Cert.Sage

open Idealize.ShloMosaic Idealize.ShloMosaic.ValueIdx Cert.KernelIdeal Cert.KernelIdeal.Gen

/-- Entry (p, q) of a tile of the transform, before any clamping. -/
def tileEntry (a x : FVec Ideal S5000x128 .f32) (wl wr : FVec Ideal S128x128 .bf16) (b : FVec Ideal S1x128 .f32)
    (p : Fin 5000) (q : Fin 128) : EReal :=
  (∑ k : Fin 128, a (ix2 p k) * wl (ix2 k q) + b (ix2 (0 : Fin 1) q)) + ∑ k : Fin 128, x (ix2 p k) * wr (ix2 k q)

/-- The first layer's stored tile at (p, q): the transform's entry clamped below by the zero the body splats. -/
theorem pay_relu_apply (a x : FVec Ideal S5000x128 .f32) (wl : FVec Ideal S128x128 .bf16) (b : FVec Ideal S1x128 .f32)
    (wr : FVec Ideal S128x128 .bf16) (p : Fin 5000) (q : Fin 128) :
    k0_pay1 (F := Ideal) a x wl b wr (ix2 p q) = max (tileEntry a x wl wr b p q) (Ideal.ofBits .f32 0x00000000#32) := by
  unfold k0_pay1 tileEntry
  rw [shapeCast_self, shapeCast_self, shapeCast_self, shapeCast_self]
  refine (maximumf_apply _ _ _).trans (congrArg₂ max ?_ rfl)
  refine (addf_apply _ _ _).trans (congrArg₂ (· + ·) ((addf_apply _ _ _).trans (congrArg₂ (· + ·) ?_ ?_)) ?_)
  · exact Cert.Lib.ContractPlain.matmulZero_apply _ rfl none (truncf .bf16 a bitsLt_bf16_f32) wl p q
  · exact broadcastTo_1b_ab_apply b _ p q
  · exact Cert.Lib.ContractPlain.matmulZero_apply _ rfl none (truncf .bf16 x bitsLt_bf16_f32) wr p q

/-- The second layer's stored tile at (p, q): the transform's entry. -/
theorem pay_plain_apply (a x : FVec Ideal S5000x128 .f32) (wl : FVec Ideal S128x128 .bf16) (b : FVec Ideal S1x128 .f32)
    (wr : FVec Ideal S128x128 .bf16) (p : Fin 5000) (q : Fin 128) :
    k1_pay1 (F := Ideal) a x wl b wr (ix2 p q) = tileEntry a x wl wr b p q := by
  unfold k1_pay1 tileEntry
  rw [shapeCast_self, shapeCast_self, shapeCast_self, shapeCast_self, shapeCast_self]
  refine (addf_apply _ _ _).trans (congrArg₂ (· + ·) ((addf_apply _ _ _).trans (congrArg₂ (· + ·) ?_ ?_)) ?_)
  · exact Cert.Lib.ContractPlain.matmulZero_apply _ rfl none (truncf .bf16 a bitsLt_bf16_f32) wl p q
  · exact broadcastTo_1b_ab_apply b _ p q
  · exact Cert.Lib.ContractPlain.matmulZero_apply _ rfl none (truncf .bf16 x bitsLt_bf16_f32) wr p q

end Cert.Sage

end
-- ==== Proof.Spec.lean ====
/-
  The dense node transform of one graph-convolution layer, entry by entry.

  With `A` the mean of the in-neighbours' features (one row of 128 numbers per node), `X` the nodes' own features,
  `WL`, `WR` two 128×128 weight matrices and `BL` a bias vector, the layer's output row of node `P` is

      (A · WL + BL) + X · WR        at column q:   (∑ₖ A (P, k) · WL (k, q) + BL q) + ∑ₖ X (P, k) · WR (k, q).

  Both programs compute exactly this finite sum on the extended reals (in this order of the two additions), the
  first layer followed by a clamp at zero; the kernel tile by tile, the reference on whole arrays.
-/
import Idealize.ShloMosaic.Lib.ValueIdx

noncomputable section

namespace Cert.Sage

open Idealize.ShloMosaic Idealize.ShloMosaic.ValueIdx

/-- Entry (P, q) of `(A · WL + BL) + X · WR`. -/
def layerEntry (A X : (⟨2, ![50000, 128]⟩ : Shape).Idx → EReal) (WL WR : (⟨2, ![128, 128]⟩ : Shape).Idx → EReal)
    (BL : (⟨1, ![128]⟩ : Shape).Idx → EReal) (P : Fin 50000) (q : Fin 128) : EReal :=
  (∑ k : Fin 128, A (ix2 P k) * WL (ix2 k q) + BL (ix1 q)) + ∑ k : Fin 128, X (ix2 P k) * WR (ix2 k q)

/-- An array of shape `[n, b]` given by its entries. -/
def ofEntries {n b : ℕ} (f : Fin n → Fin b → EReal) : (⟨2, ![n, b]⟩ : Shape).Idx → EReal :=
  fun i => f ⟨(i 0).val, idx2_lt0 i⟩ ⟨(i 1).val, idx2_lt1 i⟩

/-- Read at the index with coordinates `(P, q)` it is the entry `(P, q)`. -/
theorem ofEntries_ix2 {n b : ℕ} (f : Fin n → Fin b → EReal) (P : Fin n) (q : Fin b) : ofEntries f (ix2 P q) = f P q := rfl

/-- Two arrays of shape `[n, b]` are equal when they agree at every pair of coordinates. -/
theorem ext_ix2 {n b : ℕ} {f g : (⟨2, ![n, b]⟩ : Shape).Idx → EReal} (h : ∀ (P : Fin n) (q : Fin b), f (ix2 P q) = g (ix2 P q)) :
    f = g := by
  funext i
  rw [eq_ix2 i]
  exact h _ _

/-- The first layer's output array: the transform clamped below by `z` (the zero both programs splat). -/
def hiddenArr (A X : (⟨2, ![50000, 128]⟩ : Shape).Idx → EReal) (WL WR : (⟨2, ![128, 128]⟩ : Shape).Idx → EReal)
    (BL : (⟨1, ![128]⟩ : Shape).Idx → EReal) (z : EReal) : (⟨2, ![50000, 128]⟩ : Shape).Idx → EReal :=
  ofEntries fun P q => max (layerEntry A X WL WR BL P q) z

/-- The second layer's output array: the transform. -/
def outArr (A X : (⟨2, ![50000, 128]⟩ : Shape).Idx → EReal) (WL WR : (⟨2, ![128, 128]⟩ : Shape).Idx → EReal)
    (BL : (⟨1, ![128]⟩ : Shape).Idx → EReal) : (⟨2, ![50000, 128]⟩ : Shape).Idx → EReal :=
  ofEntries fun P q => layerEntry A X WL WR BL P q

end Cert.Sage

end
-- ==== Proof.Tiles.lean ====
/-
  From tiles to arrays: what each of the two kernel launches leaves in its output array.

  A launch walks ten grid points; point `t` reads rows `5000 t … 5000 t + 4999` of the aggregated features and of the
  node features, the whole of the two weight matrices and of the bias row, and writes back rows
  `5000 t … 5000 t + 4999` of the output. The stored tile at local entry (p, q) is the transform's entry at the tile's
  operands (Payload); a tile operand at (p, k) is the array at row `5000 t + p`, so the stored tile is the tile of ONE
  whole-array function — the transform's entries at the arrays as the launch finds them. The ten tiles cover the
  50000 rows (row `r` lies in tile `r / 5000`), so after the launch the output array is that function.
-/
import proofs.«134263_j5935644803789_1_alg».proof.Proof.Gen.KernelIdeal.Frame
import proofs.«134263_j5935644803789_1_alg».proof.Proof.Payload
import proofs.«134263_j5935644803789_1_alg».proof.Proof.Spec

set_option maxRecDepth 16384

noncomputable section

namespace Cert.Sage

open Idealize.ShloMosaic Idealize.ShloMosaic.TcCoe Idealize.ShloMosaic.ValueIdx Idealize.SL.Sem Cert.KernelIdeal Cert.KernelIdeal.Gen
open Idealize.ShloMosaic.Pipeline (Dat)

theorem origin2 : (![0, 0] : Fin 2 → Nat) = fun _ => 0 := funext fun a => by fin_cases a <;> rfl

/-- A tile's entries are the arrays' entries `T` tiles down: the transform of the tile operands at (p, q) is the
    transform of the arrays at (5000 T + p, q). -/
theorem tile_eq (A X : (⟨2, ![50000, 128]⟩ : Shape).Idx → EReal) (WL WR : (⟨2, ![128, 128]⟩ : Shape).Idx → EReal)
    (BL : (⟨1, ![128]⟩ : Shape).Idx → EReal)
    (a x : FVec Ideal S5000x128 .f32) (wl wr : FVec Ideal S128x128 .bf16) (b : FVec Ideal S1x128 .f32)
    (T : ℕ) (hT : T < 10)
    (ha : ∀ (p : Fin 5000) (k : Fin 128), a (ix2 p k) = A (ix2 (⟨T * 5000 + p.val, by omega⟩ : Fin 50000) k))
    (hx : ∀ (p : Fin 5000) (k : Fin 128), x (ix2 p k) = X (ix2 (⟨T * 5000 + p.val, by omega⟩ : Fin 50000) k))
    (hwl : ∀ k q : Fin 128, wl (ix2 k q) = WL (ix2 k q)) (hwr : ∀ k q : Fin 128, wr (ix2 k q) = WR (ix2 k q))
    (hb : ∀ q : Fin 128, b (ix2 (0 : Fin 1) q) = BL (ix1 q)) (p : Fin 5000) (q : Fin 128) :
    tileEntry a x wl wr b p q = layerEntry A X WL WR BL (⟨T * 5000 + p.val, by omega⟩ : Fin 50000) q := by
  unfold tileEntry layerEntry
  simp only [ha, hx, hwl, hwr, hb]

section Launches

variable (V : (c : Dev nD) → (b : Ref sig .tc) → Buf (Elt Ideal) ((c : Thread nD τ).loc b))

/-! ## The first launch -/

/-- The printed index maps over the grid: the three row-tiled windows sit at block row `t`, the resident ones at 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` of the first launch writes back is tile `t` of the clamped transform of the arrays at entry. -/
theorem flushed0 (c : Dev nD) (BL : (⟨1, ![128]⟩ : Shape).Idx → EReal)
    (hB : ∀ q : Fin 128, V c main_v27 (ix2 (0 : Fin 1) q) = BL (ix1 q)) (t : Fin cfg0.N) :
    (dat0 V c).flushed 5 t = ((cfg0.win 5).blk t).view.read (Elt Ideal)
      (hiddenArr (V c main_v24) (V c main_arg0) (V c main_v25) (V c main_v26) BL (Ideal.ofBits .f32 0x00000000#32)) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2,
    View.ld_unit_zero (S := S1x128) origin2]
  obtain ⟨e00, e01, e10, e11, e20, e21, e30, e31, e40, e41, e50, e51⟩ := idx0 t
  have hT : t.val < 10 := by have h := t.isLt; have hN : cfg0.N = 10 := N_0; omega
  funext y
  obtain ⟨p, q, rfl⟩ : ∃ (p : Fin 5000) (q : Fin 128), y = ix2 p q := ⟨y 0, y 1, eq_ix2 y⟩
  refine (pay_relu_apply _ _ _ _ _ p q).trans ?_
  have hemb : ((cfg0.win 5).blk t).view.emb (ix2 p q) = ix2 (⟨t.val * 5000 + p.val, by omega⟩ : Fin 50000) q :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  show _ = hiddenArr (V c main_v24) (V c main_arg0) (V c main_v25) (V c main_v26) BL (Ideal.ofBits .f32 0x00000000#32)
    (((cfg0.win 5).blk t).view.emb (ix2 p q))
  rw [hemb]
  unfold hiddenArr
  rw [ofEntries_ix2]
  refine congrArg (max · _) ?_
  refine tile_eq _ _ _ _ _ _ _ _ _ _ t.val hT ?_ ?_ ?_ ?_ ?_ p q
  · intro p k
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro p k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · intro k q
    show V c main_v25 (((cfg0.win 2).blk t).view.emb (ix2 k q)) = _
    refine congrArg (V c main_v25) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k q
    show V c main_v26 (((cfg0.win 4).blk t).view.emb (ix2 k q)) = _
    refine congrArg (V c main_v26) (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · intro q
    refine Eq.trans ?_ (hB q)
    show V c main_v27 (((cfg0.win 3).blk t).view.emb (ix2 (0 : Fin 1) q)) = _
    refine congrArg (V c main_v27) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An index lies in the tile of point `t` iff, on each axis, it lies in the tile's range. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Every row lies in a written tile: row `r` in tile `r / 5000`. -/
theorem cover0 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, e50, e51⟩ := idx0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the first launch its output array is the clamped transform of the arrays it found. -/
theorem final0 (c : Dev nD) (BL : (⟨1, ![128]⟩ : Shape).Idx → EReal)
    (hB : ∀ q : Fin 128, V c main_v27 (ix2 (0 : Fin 1) q) = BL (ix1 q)) :
    (dat0 V c).arrAt 5 cfg0.N
      = hiddenArr (V c main_v24) (V c main_arg0) (V c main_v25) (V c main_v26) BL (Ideal.ofBits .f32 0x00000000#32) :=
  (dat0 V c).arrAt_eq_of_cover 5 _ (fun t _ => flushed0 V c BL hB t) cover0

/-! ## The second launch -/

/-- The printed index maps over the grid, as for the first launch. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` of the second launch writes back is tile `t` of the transform of the arrays at entry. -/
theorem flushed1 (c : Dev nD) (BL : (⟨1, ![128]⟩ : Shape).Idx → EReal)
    (hB : ∀ q : Fin 128, V c main_v44 (ix2 (0 : Fin 1) q) = BL (ix1 q)) (t : Fin cfg1.N) :
    (dat1 V c).flushed 5 t = ((cfg1.win 5).blk t).view.read (Elt Ideal)
      (outArr (V c main_v41) (V c main_v28) (V c main_v42) (V c main_v43) BL) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x128) origin2,
    View.ld_unit_zero (S := S1x128) origin2]
  obtain ⟨e00, e01, e10, e11, e20, e21, e30, e31, e40, e41, e50, e51⟩ := idx1 t
  have hT : t.val < 10 := by have h := t.isLt; have hN : cfg1.N = 10 := N_1; omega
  funext y
  obtain ⟨p, q, rfl⟩ : ∃ (p : Fin 5000) (q : Fin 128), y = ix2 p q := ⟨y 0, y 1, eq_ix2 y⟩
  refine (pay_plain_apply _ _ _ _ _ p q).trans ?_
  have hemb : ((cfg1.win 5).blk t).view.emb (ix2 p q) = ix2 (⟨t.val * 5000 + p.val, by omega⟩ : Fin 50000) q :=
    funext fun a => Fin.ext (by
      match a with
      | ⟨0, _⟩ => show win1_5.index t (0 : Fin 2) * 5000 + 1 * p.val = t.val * 5000 + p.val; omega
      | ⟨1, _⟩ => show win1_5.index t (1 : Fin 2) * 128 + 1 * q.val = q.val; omega)
  show _ = outArr (V c main_v41) (V c main_v28) (V c main_v42) (V c main_v43) BL
    (((cfg1.win 5).blk t).view.emb (ix2 p q))
  rw [hemb]
  unfold outArr
  rw [ofEntries_ix2]
  refine tile_eq _ _ _ _ _ _ _ _ _ _ t.val hT ?_ ?_ ?_ ?_ ?_ p q
  · intro p k
    show V c main_v41 (((cfg1.win 0).blk t).view.emb (ix2 p k)) = _
    refine congrArg (V c main_v41) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p k
    show V c main_v28 (((cfg1.win 1).blk t).view.emb (ix2 p k)) = _
    refine congrArg (V c main_v28) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · intro k q
    show V c main_v42 (((cfg1.win 2).blk t).view.emb (ix2 k q)) = _
    refine congrArg (V c main_v42) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k q
    show V c main_v43 (((cfg1.win 4).blk t).view.emb (ix2 k q)) = _
    refine congrArg (V c main_v43) (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · intro q
    refine Eq.trans ?_ (hB q)
    show V c main_v44 (((cfg1.win 3).blk t).view.emb (ix2 (0 : Fin 1) q)) = _
    refine congrArg (V c main_v44) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-- An index lies in the tile of point `t` iff, on each axis, it lies in the tile's range. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Every row lies in a written tile: row `r` in tile `r / 5000`. -/
theorem cover1 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, -, -, e50, e51⟩ := idx1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the second launch its output array is the transform of the arrays it found. -/
theorem final1 (c : Dev nD) (BL : (⟨1, ![128]⟩ : Shape).Idx → EReal)
    (hB : ∀ q : Fin 128, V c main_v44 (ix2 (0 : Fin 1) q) = BL (ix1 q)) :
    (dat1 V c).arrAt 5 cfg1.N = outArr (V c main_v41) (V c main_v28) (V c main_v42) (V c main_v43) BL :=
  (dat1 V c).arrAt_eq_of_cover 5 _ (fun t _ => flushed1 V c BL hB t) cover1

end Launches

end Cert.Sage

end
-- ==== Proof.MeanLaw.lean ====
/-
  The mean of the incoming messages, written two ways.

  A node's aggregated row is divided by its clamped in-degree `d = max deg 1`. One program multiplies the row by the
  reciprocal `1 / d` computed once; the other divides the row by `d`. On the extended reals the quotient by a
  non-zero `d` is the product with `d⁻¹`, and `1 / d` is `1 · d⁻¹ = d⁻¹`; and `d` is never zero because it is
  at least `1`. So the two spellings agree at every entry, whatever the row holds (an infinite entry included):
  no finiteness of the data is used.
-/
import Idealize.ShloMosaic.PureOps.Ideal

noncomputable section

namespace Cert.Sage

open Idealize.ShloMosaic

/-- The single-precision pattern of `1.0` denotes the real number one. -/
theorem ofBits_one : Ideal.ofBits .f32 0x3F800000#32 = 1 := by
  simp [Ideal.ofBits, Ideal.ieee, -EReal.coe_mul]; norm_num

/-- A clamped degree `max e 1` is not zero: it is at least one. -/
theorem clamp_ne_zero (e : EReal) : max e (1 : EReal) ≠ 0 :=
  ne_of_gt (lt_of_lt_of_le zero_lt_one (le_max_right e 1))

/-- Multiplying by the reciprocal of the clamped degree is dividing by the clamped degree. -/
theorem mul_recip_eq_div (a e : EReal) :
    a * Ideal.div (Ideal.ofBits .f32 0x3F800000#32) (max e (Ideal.ofBits .f32 0x3F800000#32))
      = Ideal.div a (max e (Ideal.ofBits .f32 0x3F800000#32)) := by
  rw [ofBits_one]
  unfold Ideal.div
  rw [if_neg (clamp_ne_zero e), if_neg (clamp_ne_zero e), one_mul]

end Cert.Sage

end
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.MeanArr.lean ====
/-
  The mean of the neighbours' features as a whole array, in its two spellings.

  `SZ` holds, per node, the sum of the features of its in-neighbours; `d` the node's in-degree. One program scales
  row `P` of `SZ` by the reciprocal `1 / max (d P) 1`, computed once per node and repeated along the row; the
  other divides row `P` by `max (d P) 1` repeated along the row. Repeating a per-node number along a row reads, at
  (P, q), that node's number; so entry by entry the two arrays are the two sides of the scalar law
  `a · (1 / max e 1) = a / max e 1`, which holds for every extended real `a`.
-/
import Idealize.ShloMosaic.Lib.Pipeline.Value
import Idealize.ShloMosaic.Lib.ValueIdx
import proofs.«134263_j5935644803789_1_alg».proof.Proof.MeanLaw
import proofs.«134263_j5935644803789_1_alg».proof.Proof.LibColumnInDim

noncomputable section

namespace Cert.Sage

open Idealize.ShloMosaic Idealize.ShloMosaic.ValueIdx Cert.Lib.ColumnInDim

/-- Scaling every row by the reciprocal of its node's clamped degree is dividing every row by that clamped degree.
    `o1` and `o2` are the two splats of `1.0` the programs build (the numerator's and the clamp's). -/
theorem mean_eq (h1 : (⟨1, ![50000]⟩ : Shape).BroadcastsInDim ⟨2, ![50000, 1]⟩ ![0])
    (h2 : (⟨2, ![50000, 1]⟩ : Shape).BroadcastsInDim ⟨2, ![50000, 128]⟩ ![0, 1])
    (SZ : FVec Ideal ⟨2, ![50000, 128]⟩ .f32) (d o1 o2 : FVec Ideal ⟨1, ![50000]⟩ .f32)
    (ho1 : ∀ r, o1 r = Ideal.ofBits .f32 0x3F800000#32) (ho2 : ∀ r, o2 r = Ideal.ofBits .f32 0x3F800000#32) :
    mulf SZ (broadcastInDim ⟨2, ![50000, 128]⟩ ![0, 1] h2 (broadcastInDim ⟨2, ![50000, 1]⟩ ![0] h1 (Host.divf o1 (maximumf d o2))))
      = Host.divf SZ (broadcastInDim ⟨2, ![50000, 128]⟩ ![0, 1] h2 (broadcastInDim ⟨2, ![50000, 1]⟩ ![0] h1 (maximumf d o2))) := by
  funext i
  obtain ⟨P, q, rfl⟩ : ∃ (P : Fin 50000) (q : Fin 128), i = ix2 P q := ⟨i 0, i 1, eq_ix2 i⟩
  show SZ (ix2 P q) * broadcastInDim ⟨2, ![50000, 128]⟩ ![0, 1] h2 (broadcastInDim ⟨2, ![50000, 1]⟩ ![0] h1 (Host.divf o1 (maximumf d o2))) (ix2 P q)
    = Ideal.div (SZ (ix2 P q)) (broadcastInDim ⟨2, ![50000, 128]⟩ ![0, 1] h2 (broadcastInDim ⟨2, ![50000, 1]⟩ ![0] h1 (maximumf d o2)) (ix2 P q))
  rw [spread_apply (by decide) h2, column_apply (by decide) h1, spread_apply (by decide) h2, column_apply (by decide) h1]
  show SZ (ix2 P q) * Ideal.div (o1 (ix1 P)) (max (d (ix1 P)) (o2 (ix1 P))) = Ideal.div (SZ (ix2 P q)) (max (d (ix1 P)) (o2 (ix1 P)))
  rw [ho1, ho2]
  exact mul_recip_eq_div _ _

end Cert.Sage

end
-- ==== Proof.RefLayer.lean ====
/-
  The reference's two layers read at one entry.

  The reference computes each layer on whole arrays: two matrix products, a bias row broadcast over the nodes, two
  additions, and after the first layer a maximum with a splat of zero. Read at entry (P, q) each product is the sum
  over the contracted coordinate, the broadcast bias is the bias at `q`, so the layer is `layerEntry` of its
  operands; the first operand — the mean of the neighbours' features — is left as the reference spells it.
-/
import proofs.«134263_j5935644803789_1_alg».proof.Proof.Gen.ReferenceIdeal.Read
import proofs.«134263_j5935644803789_1_alg».proof.Proof.Spec

noncomputable section

namespace Cert.Sage

open Idealize.ShloMosaic Idealize.ShloMosaic.ValueIdx Cert.ReferenceIdeal Cert.ReferenceIdeal.Read

/-! The coordinates the reference's products and broadcasts read, as coordinates: entry (P, q) of a product reads row
    `P` of the left operand and column `q` of the right one; the broadcast bias reads the bias at `q`. -/

theorem l23 (P : Fin 50000) (q k : Fin 128) : lidx_main_v23 (ix2 P q) k = ix2 P k :=
  funext fun a => by match a with | ⟨0, _⟩ => rfl | ⟨1, _⟩ => rfl
theorem r23 (P : Fin 50000) (q k : Fin 128) : ridx_main_v23 (ix2 P q) k = ix2 k q :=
  funext fun a => by match a with | ⟨0, _⟩ => rfl | ⟨1, _⟩ => rfl
theorem l27 (P : Fin 50000) (q k : Fin 128) : lidx_main_v27 (ix2 P q) k = ix2 P k :=
  funext fun a => by match a with | ⟨0, _⟩ => rfl | ⟨1, _⟩ => rfl
theorem r27 (P : Fin 50000) (q k : Fin 128) : ridx_main_v27 (ix2 P q) k = ix2 k q :=
  funext fun a => by match a with | ⟨0, _⟩ => rfl | ⟨1, _⟩ => rfl
theorem b25 (P : Fin 50000) (q : Fin 128) : idx_main_v24 (idx_main_v25 (ix2 P q)) = ix1 q :=
  funext fun a => by match a with | ⟨0, _⟩ => rfl
theorem l49 (P : Fin 50000) (q k : Fin 128) : lidx_main_v49 (ix2 P q) k = ix2 P k :=
  funext fun a => by match a with | ⟨0, _⟩ => rfl | ⟨1, _⟩ => rfl
theorem r49 (P : Fin 50000) (q k : Fin 128) : ridx_main_v49 (ix2 P q) k = ix2 k q :=
  funext fun a => by match a with | ⟨0, _⟩ => rfl | ⟨1, _⟩ => rfl
theorem l53 (P : Fin 50000) (q k : Fin 128) : lidx_main_v53 (ix2 P q) k = ix2 P k :=
  funext fun a => by match a with | ⟨0, _⟩ => rfl | ⟨1, _⟩ => rfl
theorem r53 (P : Fin 50000) (q k : Fin 128) : ridx_main_v53 (ix2 P q) k = ix2 k q :=
  funext fun a => by match a with | ⟨0, _⟩ => rfl | ⟨1, _⟩ => rfl
theorem b51 (P : Fin 50000) (q : Fin 128) : idx_main_v50 (idx_main_v51 (ix2 P q)) = ix1 q :=
  funext fun a => by match a with | ⟨0, _⟩ => rfl

/-- The first layer before the clamp, at (P, q). -/
theorem ref_layer1_apply (x0 : FVec Ideal S50000x128 .f32) (x1 : IVec S2x600000 32) (x2 : FVec Ideal S128x128 .f32)
    (x3 : FVec Ideal S128 .f32) (x4 : FVec Ideal S128x128 .f32) (P : Fin 50000) (q : Fin 128) :
    val_main_v28 (F := Ideal) x0 x1 x2 x3 x4 (ix2 P q)
      = layerEntry (val_main_v22 (F := Ideal) x0 x1) x0 x2 x4 x3 P q := by
  rw [val_main_v28_apply, val_main_v26_apply, val_main_v23_apply, val_main_v25_apply, val_main_v24_apply,
    val_main_v27_apply]
  simp only [l23, r23, l27, r27, b25]
  rfl

/-- The first layer, at (P, q): the clamp at the zero the reference splats. -/
theorem ref_hidden_apply (x0 : FVec Ideal S50000x128 .f32) (x1 : IVec S2x600000 32) (x2 : FVec Ideal S128x128 .f32)
    (x3 : FVec Ideal S128 .f32) (x4 : FVec Ideal S128x128 .f32) (P : Fin 50000) (q : Fin 128) :
    val_main_v29 (F := Ideal) x0 x1 x2 x3 x4 (ix2 P q)
      = max (layerEntry (val_main_v22 (F := Ideal) x0 x1) x0 x2 x4 x3 P q) (Ideal.ofBits .f32 0x00000000#32) := by
  rw [val_main_v29_apply, ref_layer1_apply, val_main_call0_v0_apply, val_main_call0_cst_apply]
  rfl

/-- The second layer, at (P, q): `layerEntry` of the second mean and of the hidden features. -/
theorem ref_layer2_apply (x0 : FVec Ideal S50000x128 .f32) (x1 : IVec S2x600000 32) (x2 : FVec Ideal S128x128 .f32)
    (x3 : FVec Ideal S128 .f32) (x4 x5 : FVec Ideal S128x128 .f32) (x6 : FVec Ideal S128 .f32)
    (x7 : FVec Ideal S128x128 .f32) (P : Fin 50000) (q : Fin 128) :
    val_main_v54 (F := Ideal) x0 x1 x2 x3 x4 x5 x6 x7 (ix2 P q)
      = layerEntry (val_main_v48 (F := Ideal) x0 x1 x2 x3 x4) (val_main_v29 (F := Ideal) x0 x1 x2 x3 x4) x5 x7 x6 P q := by
  rw [val_main_v54_apply, val_main_v52_apply, val_main_v49_apply, val_main_v51_apply, val_main_v50_apply,
    val_main_v53_apply]
  simp only [l49, r49, l53, r53, b51]
  rfl

end Cert.Sage

end
-- ==== Proof.KernelValue.lean ====
/-
  The kernel program's result is the reference's result.

  Write `S(Z)` for the rows of `Z` gathered along the edge sources and scatter-added along the edge destinations,
  `d` for the clamped in-degrees. The kernel program computes

      H   = max ((S(x) · (1/d)) · WL₁ + b₁ + x · WR₁, 0)          (first launch)
      out =      (S(H) · (1/d)) · WL₂ + b₂ + H · WR₂              (second launch)

  and the reference the same with `S(·) / d` in place of `S(·) · (1/d)`. The two means agree entry by entry because
  `d ≥ 1` (MeanArr); each launch leaves its transform of the arrays it finds (Tiles), and the reference's layers read
  at an entry are the same transform (RefLayer). So the hidden features agree, hence the second means, hence the
  results. The gather and the scatter-add are never opened: both programs apply the same ones to equal operands.
-/
import proofs.«134263_j5935644803789_1_alg».proof.Proof.Entry
import proofs.«134263_j5935644803789_1_alg».proof.Proof.Tiles
import proofs.«134263_j5935644803789_1_alg».proof.Proof.MeanArr
import proofs.«134263_j5935644803789_1_alg».proof.Proof.RefLayer
import Idealize.ShloMosaic.Lib.ValueLayout

set_option maxRecDepth 16384

noncomputable section

namespace Cert.Sage

open Idealize.ShloMosaic Idealize.ShloMosaic.TcCoe Idealize.ShloMosaic.ValueIdx Idealize.SL.Sem
open Cert.KernelIdeal Cert.KernelIdeal.Gen Cert.ReferenceIdeal.Read

/-- The reference's splat of `1.0` over the nodes reads `1.0` at every node. -/
theorem ones18 (r : S50000.Idx) : val_main_v18 (F := Ideal) r = Ideal.ofBits .f32 0x3F800000#32 :=
  (val_main_v18_apply r).trans (val_main_cst_3_apply _)

/-- The first mean: the summed neighbour rows scaled by the reciprocals are the reference's quotient. -/
theorem agg1_eq (x0 : FVec Ideal S50000x128 .f32) (x1 : IVec S2x600000 32) :
    mulf (val_main_v13 (F := Ideal) x0 x1) (recipRows x1) = val_main_v22 (F := Ideal) x0 x1 := by
  unfold val_main_v22 val_main_v21 val_main_v20 val_main_v19
  exact mean_eq _ _ (val_main_v13 (F := Ideal) x0 x1) (val_main_v17 (F := Ideal) x1) (val_main_v18 (F := Ideal))
    (val_main_v18 (F := Ideal)) ones18 ones18

/-- The second mean, the same way; the reference counts the in-degrees a second time, by the same operations. -/
theorem agg2_eq (x0 : FVec Ideal S50000x128 .f32) (x1 : IVec S2x600000 32) (x2 : FVec Ideal S128x128 .f32)
    (x3 : FVec Ideal S128 .f32) (x4 : FVec Ideal S128x128 .f32) :
    mulf (val_main_v39 (F := Ideal) x0 x1 x2 x3 x4) (recipRows x1) = val_main_v48 (F := Ideal) x0 x1 x2 x3 x4 := by
  have e43 : val_main_v43 (F := Ideal) x1 = val_main_v17 (F := Ideal) x1 := rfl
  have e44 : val_main_v44 (F := Ideal) = val_main_v18 (F := Ideal) := rfl
  unfold val_main_v48 val_main_v47 val_main_v46 val_main_v45
  rw [e43, e44]
  exact mean_eq _ _ (val_main_v39 (F := Ideal) x0 x1 x2 x3 x4) (val_main_v17 (F := Ideal) x1) (val_main_v18 (F := Ideal))
    (val_main_v18 (F := Ideal)) ones18 ones18

variable (m : (ℓ : Loc nD τ sig) → Buf (Elt Ideal) ℓ) (ρ : Dev nD → PrngReg)

/-- After the first launch the hidden features are the reference's. -/
theorem hidden_eq (c : Dev nD) :
    @Eq (FVec Ideal S50000x128 .f32) (V2 m ρ c main_v28)
      (val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))) := by
  have hB : ∀ q : Fin 128, V1 m ρ c main_v27 (ix2 (0 : Fin 1) q) = m ((c : Thread nD τ).loc main_arg3) (ix1 q) := fun q => by
    rw [entry_v27]
    exact shapeCast_a_1a_apply _ _ 0 q
  refine (W2_arr m ρ c 5).trans ?_
  refine (final0 (V1 m ρ) c _ hB).trans ?_
  rw [entry_v24, entry_arg0, entry_v25, entry_v26, agg1_eq]
  refine ext_ix2 fun P q => ?_
  rw [ref_hidden_apply]
  rfl

/-- After the second launch the result array is the reference's result. -/
theorem out_eq (c : Dev nD) :
    @Eq (FVec Ideal S50000x128 .f32) (W4 m ρ c (Proc.devRef .tc main_v45))
      (val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) := by
  have hB : ∀ q : Fin 128, V3 m ρ c main_v44 (ix2 (0 : Fin 1) q) = m ((c : Thread nD τ).loc main_arg6) (ix1 q) := fun q => by
    rw [exit_v44]
    exact shapeCast_a_1a_apply _ _ 0 q
  refine (W4_arr m ρ c 5).trans ?_
  refine (final1 (V3 m ρ) c _ hB).trans ?_
  rw [exit_v41 m ρ c (hidden_eq m ρ c), exit_v28, hidden_eq, exit_v42, exit_v43, agg2_eq]
  refine ext_ix2 fun P q => ?_
  rw [ref_layer2_apply]
  rfl

end Cert.Sage

end
-- ==== Proof.lean ====
/-
  A two-layer graph convolution with mean aggregation (each layer: the mean of the in-neighbours' rows times a weight
  matrix, plus a bias, plus the node's own row times a second weight matrix; a clamp at zero between the layers),
  computed by two tiled kernel launches among host gathers and scatter-adds, against the same network written with
  whole-array operations.

  The frames of the three programs are the generated ones (the reference's is its generated run with the result
  dropped). The kernel program's idealization rewrote nothing, so there is nothing to preserve. On the extended reals
  the two programs end with equal results: the kernel program's run names every buffer's final contents (KernelRun),
  its result buffer holds the second layer's transform of what the second launch found (Tiles), and that is the
  reference's result term entry by entry (KernelValue) — the one law used being that scaling a row by `1 / max d 1`
  is dividing it by `max d 1`, true for every extended real because `max d 1` is not zero. No finiteness of the
  inputs is needed, so the precondition is not opened.
-/
import proofs.«134263_j5935644803789_1_alg».proof.Defs
import proofs.«134263_j5935644803789_1_alg».proof.Proof.Gen.Kernel
import proofs.«134263_j5935644803789_1_alg».proof.Proof.Gen.Kernel.Skeleton
import proofs.«134263_j5935644803789_1_alg».proof.Proof.Gen.Kernel.Launch
import proofs.«134263_j5935644803789_1_alg».proof.Proof.Gen.Kernel.Points
import proofs.«134263_j5935644803789_1_alg».proof.Proof.Gen.Kernel.Frame
import proofs.«134263_j5935644803789_1_alg».proof.Proof.Gen.KernelIdeal
import proofs.«134263_j5935644803789_1_alg».proof.Proof.Gen.KernelIdeal.Skeleton
import proofs.«134263_j5935644803789_1_alg».proof.Proof.Gen.KernelIdeal.Launch
import proofs.«134263_j5935644803789_1_alg».proof.Proof.Gen.KernelIdeal.Points
import proofs.«134263_j5935644803789_1_alg».proof.Proof.Gen.KernelIdeal.Frame
import proofs.«134263_j5935644803789_1_alg».proof.Proof.Gen.ReferenceIdeal
import proofs.«134263_j5935644803789_1_alg».proof.Proof.Gen.Pre_finite_inputs
import proofs.«134263_j5935644803789_1_alg».proof.Proof.Gen.ReferenceIdeal.Run
import proofs.«134263_j5935644803789_1_alg».proof.Proof.Gen.ReferenceIdeal.Read
import proofs.«134263_j5935644803789_1_alg».proof.Proof.KernelRun
import proofs.«134263_j5935644803789_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run and end with the reference's result term of the
    kernel program's arguments in their result buffers, the arguments unchanged. -/
theorem algebraic : Cert.algebraic_KernelIdeal_ReferenceIdeal := by
  intro m ρ m' ρ' _ hagree
  refine ⟨fun c => Cert.ReferenceIdeal.Read.val_main_v54 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.Sage.run_all (F := Ideal) m ρ)
    exact ⟨(h c _ (Cert.KernelIdeal.Gen.mem_uc Cert.KernelIdeal.main_v45 (by decide))).trans (Cert.Sage.out_eq m ρ c),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c),
      (h c _ (Cert.KernelIdeal.Gen.mem_uc Cert.KernelIdeal.main_arg4 (by decide))).trans (Cert.KernelIdeal.Gen.W4_main_arg4 m ρ c),
      (h c _ (Cert.KernelIdeal.Gen.mem_uc Cert.KernelIdeal.main_arg5 (by decide))).trans (Cert.KernelIdeal.Gen.W4_main_arg5 m ρ c),
      (h c _ (Cert.KernelIdeal.Gen.mem_uc Cert.KernelIdeal.main_arg6 (by decide))).trans (Cert.KernelIdeal.Gen.W4_main_arg6 m ρ c),
      (h c _ (Cert.KernelIdeal.Gen.mem_uc Cert.KernelIdeal.main_arg7 (by decide))).trans (Cert.KernelIdeal.Gen.W4_main_arg7 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
